-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S256x2048 : Shape := ⟨2, ![256, 2048]⟩
abbrev S2048x1024 : Shape := ⟨2, ![2048, 1024]⟩
abbrev S1x1024 : Shape := ⟨2, ![1, 1024]⟩

abbrev nBuf : Space → Nat
  | .hbm => 23
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S2048x4096, .f32⟩
  | .hbm, ⟨18, _⟩ => ⟨S2048x4096, .bf16⟩
  | .hbm, ⟨19, _⟩ => ⟨S4096, .f32⟩
  | .hbm, ⟨20, _⟩ => ⟨S1x4096, .f32⟩
  | .hbm, ⟨21, _⟩ => ⟨S8192x1024, .f32⟩
  | .hbm, ⟨22, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  concatenates_S1024x4096_S1024x4096_S2048x4096_d0 : Shape.Concatenates [S1024x4096, S1024x4096] S2048x4096 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S2048x4096_S2048x1024_0_1024 : ∀ a, (![0, 1024] : Fin 2 → Nat) a + S2048x1024.size a ≤ S2048x4096.size a
  inb_S1x4096_S1x1024_0_1024 : ∀ a, (![0, 1024] : Fin 2 → Nat) a + S1x1024.size a ≤ S1x4096.size a
  inb_S2048x4096_S2048x1024_0_2048 : ∀ a, (![0, 2048] : Fin 2 → Nat) a + S2048x1024.size a ≤ S2048x4096.size a
  inb_S1x4096_S1x1024_0_2048 : ∀ a, (![0, 2048] : Fin 2 → Nat) a + S1x1024.size a ≤ S1x4096.size a
  inb_S2048x4096_S2048x1024_0_3072 : ∀ a, (![0, 3072] : Fin 2 → Nat) a + S2048x1024.size a ≤ S2048x4096.size a
  inb_S1x4096_S1x1024_0_3072 : ∀ a, (![0, 3072] : Fin 2 → Nat) a + S1x1024.size a ≤ S1x4096.size a
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KernelTile.lean ====
/-
  The frame of the LSTM-cell program: one pallas_call on a grid of 32 points, each point one tile of 256 batch rows.
  Before the call @main builds two arrays on the host: the eight weight matrices laid side by side and one above the
  other into a single [2048, 4096] matrix (columns g·1024 … g·1024+1023 belong to gate g; rows 0 … 1023 multiply x and
  rows 1024 … 2047 multiply h), and the four biases as one [1, 4096] row. None of these host lines writes an
  argument, so the call finds every argument as launched.
  At a point t the body reads the t-th row tile of x, h and c, the whole stacked matrix and the whole bias row (both
  fetched once, at the first point, their block index constant), and overwrites the t-th row tile of the two results
  with one store each, covering the tile. Hence: after the body the result tiles are a pure function of the five
  input blocks (`tileH`, `tileC`); the inputs' staging buffers are unchanged; and the run of the whole pipeline
  leaves each argument array as it was.
-/
import proofs.«179591_j79645873537420_2_alg».proof.Proof.Gen.Kernel.Launch
import proofs.«179591_j79645873537420_2_alg».proof.Proof.Gen.Kernel.Skeleton
import proofs.«179591_j79645873537420_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lstm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the six host lines that stack the weights
    and the biases. -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host line writes its own result buffer only, so an argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether fetched there (the three row
    tiles) or carried from the first point (the stacked weights and the bias row, whose block index never moves). -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the pipeline -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole [256, 1024] tile. -/
abbrev rT : Rect S256x1024 := Rect.unit (s := S256x1024) ![0, 0] S256x1024.size inb_S256x1024_S256x1024_0_0
/-- Gate g's [2048, 1024] column band of the stacked weights. -/
abbrev rW0 : Rect S2048x4096 := Rect.unit (s := S2048x4096) ![0, 0] S2048x1024.size inb_S2048x4096_S2048x1024_0_0
abbrev rW1 : Rect S2048x4096 := Rect.unit (s := S2048x4096) ![0, 1024] S2048x1024.size inb_S2048x4096_S2048x1024_0_1024
abbrev rW2 : Rect S2048x4096 := Rect.unit (s := S2048x4096) ![0, 2048] S2048x1024.size inb_S2048x4096_S2048x1024_0_2048
abbrev rW3 : Rect S2048x4096 := Rect.unit (s := S2048x4096) ![0, 3072] S2048x1024.size inb_S2048x4096_S2048x1024_0_3072
/-- Gate g's [1, 1024] piece of the bias row. -/
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072

/-! ## What the body leaves in the two result tiles -/

/-- The new cell state's tile: f · c + i · tanh(g-preactivation), from the five input blocks. -/
def tileC (x0 x1 x2 : Vec F S256x1024 .f32) (x3 : Vec F S2048x4096 .bf16) (x4 : Vec F S1x4096 .f32) : FVec F S256x1024 .f32 :=
  k0_pay1 (k0_pay4 (View.ld x0 rT) (View.ld x1 rT) (View.ld x3 rW0) (View.ld x4 rB0))
    (k0_pay5 (View.ld x0 rT) (View.ld x1 rT) (View.ld x3 rW1) (View.ld x4 rB1))
    (k0_pay7 (View.ld x0 rT) (View.ld x1 rT) (View.ld x3 rW3)) (k0_pay8 (View.ld x4 rB3)) (View.ld x2 rT)

/-- The new hidden state's tile: o · tanh(new cell state). -/
def tileH (x0 x1 x2 : Vec F S256x1024 .f32) (x3 : Vec F S2048x4096 .bf16) (x4 : Vec F S1x4096 .f32) : FVec F S256x1024 .f32 :=
  k0_pay2 (k0_pay4 (View.ld x0 rT) (View.ld x1 rT) (View.ld x3 rW0) (View.ld x4 rB0))
    (k0_pay5 (View.ld x0 rT) (View.ld x1 rT) (View.ld x3 rW1) (View.ld x4 rB1))
    (k0_pay6 (View.ld x0 rT) (View.ld x1 rT) (View.ld x3 rW2) (View.ld x4 rB2))
    (k0_pay7 (View.ld x0 rT) (View.ld x1 rT) (View.ld x3 rW3)) (k0_pay8 (View.ld x4 rB3)) (View.ld x2 rT)

/-- Window 5's staging buffer after the body: its one store. -/
def out5 (x0 x1 x2 : Vec F S256x1024 .f32) (x3 : Vec F S2048x4096 .bf16) (x4 : Vec F S1x4096 .f32) : Vec F S256x1024 .f32 :=
  View.canon [⟨rT, tileH x0 x1 x2 x3 x4⟩]
/-- Window 6's staging buffer after the body: its one store. -/
def out6 (x0 x1 x2 : Vec F S256x1024 .f32) (x3 : Vec F S2048x4096 .bf16) (x4 : Vec F S1x4096 .f32) : Vec F S256x1024 .f32 :=
  View.canon [⟨rT, tileC x0 x1 x2 x3 x4⟩]

/-- One whole-tile store covers the tile. -/
theorem coverT (p0 : Vec F S256x1024 .f32) (y : S256x1024.Idx) :
    ∃ pc ∈ ([⟨rT, p0⟩] : List (View.Piece (Elt F) S256x1024 .f32)), y ∈ pc.1.set :=
  View.cover_of_tiled [⟨rT, p0⟩] S256x1024.size (by rfl) y

/-! ## The body's triple -/

set_option maxHeartbeats 4000000 in
/-- The body on whole staging memrefs — the inputs' at contents `xW`, the results' at anything — runs to the continuation
    holding the inputs' as they were and the results' at `out5`, `out6` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4) ∗ owns (c : Thread nD τ) arg7 fullShare (out6 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (coverT _)
  · iexists _; isplitr
    swap; · iexact H6
    ipureintro
    try dsimp only
    exact View.read_writes_eq_canon _ _ _ (coverT _)

end Cert.Kernel.Lstm

end
-- ==== Proof.KernelRun.lean ====
/-
  The run of the whole pipeline. The proof data says, for every grid point t: each input window's staging buffer is
  left holding its block (the body only reads it), and the two result windows' buffers are left holding the new hidden
  state's and the new cell state's tile computed from the five input blocks at t. With the body's triple this gives the
  body obligation at every point, hence the run of @main, whose post names each result array after the run and keeps
  every argument array.
-/
import proofs.«179591_j79645873537420_2_alg».proof.Proof.KernelTile

set_option maxRecDepth 16384

noncomputable section

namespace Cert.Kernel.Lstm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the call finds them; after the body at point `t` each input's buffer at
    its block and each result's at its tile of the input blocks; nothing of the kernel's own; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
    | ⟨6, _⟩ => out6 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 (iblk m c 0 t) (iblk m c 1 t) (iblk m c 2 t) (iblk m c 3 t) (iblk m c 4 t) := by dsimp only [dats]
theorem after6 (c : Dev nD) (t : Fin cfg0.N) : (dats m 0 c).after 6 t = out6 (iblk m c 0 t) (iblk m c 1 t) (iblk m c 2 t) (iblk m c 3 t) (iblk m c 4 t) := by dsimp only [dats]

theorem held0 (c : Dev nD) (t : Fin cfg0.N) (d) : (dats m 0 c).before 0 t d = iblk m c 0 t :=
  held0_of m (dats m 0 c) (A_eq m c 0) (after0 m c) t d
theorem held1 (c : Dev nD) (t : Fin cfg0.N) (d) : (dats m 0 c).before 1 t d = iblk m c 1 t :=
  held1_of m (dats m 0 c) (A_eq m c 1) (after1 m c) t d
theorem held2 (c : Dev nD) (t : Fin cfg0.N) (d) : (dats m 0 c).before 2 t d = iblk m c 2 t :=
  held2_of m (dats m 0 c) (A_eq m c 2) (after2 m c) t d
theorem held3 (c : Dev nD) (t : Fin cfg0.N) (d) : (dats m 0 c).before 3 t d = iblk m c 3 t :=
  held3_of m (dats m 0 c) (A_eq m c 3) (after3 m c) t d
theorem held4 (c : Dev nD) (t : Fin cfg0.N) (d) : (dats m 0 c).before 4 t d = iblk m c 4 t :=
  held4_of m (dats m 0 c) (A_eq m c 4) (after4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point: the inputs' buffers hold their blocks, so the body's triple applies; the invariant and the
    core's debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, each array of the pipeline
    ends at what the proof data computes and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and every argument array is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Lstm

end
-- ==== Proof.KernelIdealTile.lean ====
/-
  The frame of the LSTM-cell program: one pallas_call on a grid of 32 points, each point one tile of 256 batch rows.
  Before the call @main builds two arrays on the host: the eight weight matrices laid side by side and one above the
  other into a single [2048, 4096] matrix (columns g·1024 … g·1024+1023 belong to gate g; rows 0 … 1023 multiply x and
  rows 1024 … 2047 multiply h), and the four biases as one [1, 4096] row. None of these host lines writes an
  argument, so the call finds every argument as launched.
  At a point t the body reads the t-th row tile of x, h and c, the whole stacked matrix and the whole bias row (both
  fetched once, at the first point, their block index constant), and overwrites the t-th row tile of the two results
  with one store each, covering the tile. Hence: after the body the result tiles are a pure function of the five
  input blocks (`tileH`, `tileC`); the inputs' staging buffers are unchanged; and the run of the whole pipeline
  leaves each argument array as it was.
-/
import proofs.«179591_j79645873537420_2_alg».proof.Proof.Gen.KernelIdeal.Launch
import proofs.«179591_j79645873537420_2_alg».proof.Proof.Gen.KernelIdeal.Skeleton
import proofs.«179591_j79645873537420_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the six host lines that stack the weights
    and the biases. -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host line writes its own result buffer only, so an argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether fetched there (the three row
    tiles) or carried from the first point (the stacked weights and the bias row, whose block index never moves). -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the pipeline -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole [256, 1024] tile. -/
abbrev rT : Rect S256x1024 := Rect.unit (s := S256x1024) ![0, 0] S256x1024.size inb_S256x1024_S256x1024_0_0
/-- Gate g's [2048, 1024] column band of the stacked weights. -/
abbrev rW0 : Rect S2048x4096 := Rect.unit (s := S2048x4096) ![0, 0] S2048x1024.size inb_S2048x4096_S2048x1024_0_0
abbrev rW1 : Rect S2048x4096 := Rect.unit (s := S2048x4096) ![0, 1024] S2048x1024.size inb_S2048x4096_S2048x1024_0_1024
abbrev rW2 : Rect S2048x4096 := Rect.unit (s := S2048x4096) ![0, 2048] S2048x1024.size inb_S2048x4096_S2048x1024_0_2048
abbrev rW3 : Rect S2048x4096 := Rect.unit (s := S2048x4096) ![0, 3072] S2048x1024.size inb_S2048x4096_S2048x1024_0_3072
/-- Gate g's [1, 1024] piece of the bias row. -/
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072

/-! ## What the body leaves in the two result tiles -/

/-- The new cell state's tile: f · c + i · tanh(g-preactivation), from the five input blocks. -/
def tileC (x0 x1 x2 : Vec F S256x1024 .f32) (x3 : Vec F S2048x4096 .bf16) (x4 : Vec F S1x4096 .f32) : FVec F S256x1024 .f32 :=
  k0_pay1 (k0_pay4 (View.ld x0 rT) (View.ld x1 rT) (View.ld x3 rW0) (View.ld x4 rB0))
    (k0_pay5 (View.ld x0 rT) (View.ld x1 rT) (View.ld x3 rW1) (View.ld x4 rB1))
    (k0_pay7 (View.ld x0 rT) (View.ld x1 rT) (View.ld x3 rW3)) (k0_pay8 (View.ld x4 rB3)) (View.ld x2 rT)

/-- The new hidden state's tile: o · tanh(new cell state). -/
def tileH (x0 x1 x2 : Vec F S256x1024 .f32) (x3 : Vec F S2048x4096 .bf16) (x4 : Vec F S1x4096 .f32) : FVec F S256x1024 .f32 :=
  k0_pay2 (k0_pay4 (View.ld x0 rT) (View.ld x1 rT) (View.ld x3 rW0) (View.ld x4 rB0))
    (k0_pay5 (View.ld x0 rT) (View.ld x1 rT) (View.ld x3 rW1) (View.ld x4 rB1))
    (k0_pay6 (View.ld x0 rT) (View.ld x1 rT) (View.ld x3 rW2) (View.ld x4 rB2))
    (k0_pay7 (View.ld x0 rT) (View.ld x1 rT) (View.ld x3 rW3)) (k0_pay8 (View.ld x4 rB3)) (View.ld x2 rT)

/-- Window 5's staging buffer after the body: its one store. -/
def out5 (x0 x1 x2 : Vec F S256x1024 .f32) (x3 : Vec F S2048x4096 .bf16) (x4 : Vec F S1x4096 .f32) : Vec F S256x1024 .f32 :=
  View.canon [⟨rT, tileH x0 x1 x2 x3 x4⟩]
/-- Window 6's staging buffer after the body: its one store. -/
def out6 (x0 x1 x2 : Vec F S256x1024 .f32) (x3 : Vec F S2048x4096 .bf16) (x4 : Vec F S1x4096 .f32) : Vec F S256x1024 .f32 :=
  View.canon [⟨rT, tileC x0 x1 x2 x3 x4⟩]

/-- One whole-tile store covers the tile. -/
theorem coverT (p0 : Vec F S256x1024 .f32) (y : S256x1024.Idx) :
    ∃ pc ∈ ([⟨rT, p0⟩] : List (View.Piece (Elt F) S256x1024 .f32)), y ∈ pc.1.set :=
  View.cover_of_tiled [⟨rT, p0⟩] S256x1024.size (by rfl) y

/-! ## The body's triple -/

set_option maxHeartbeats 4000000 in
/-- The body on whole staging memrefs — the inputs' at contents `xW`, the results' at anything — runs to the continuation
    holding the inputs' as they were and the results' at `out5`, `out6` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4) ∗ owns (c : Thread nD τ) arg7 fullShare (out6 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (coverT _)
  · iexists _; isplitr
    swap; · iexact H6
    ipureintro
    try dsimp only
    exact View.read_writes_eq_canon _ _ _ (coverT _)

end Cert.KernelIdeal.Lstm

end
-- ==== Proof.KernelIdealRun.lean ====
/-
  The run of the whole pipeline. The proof data says, for every grid point t: each input window's staging buffer is
  left holding its block (the body only reads it), and the two result windows' buffers are left holding the new hidden
  state's and the new cell state's tile computed from the five input blocks at t. With the body's triple this gives the
  body obligation at every point, hence the run of @main, whose post names each result array after the run and keeps
  every argument array.
-/
import proofs.«179591_j79645873537420_2_alg».proof.Proof.KernelIdealTile

set_option maxRecDepth 16384

noncomputable section

namespace Cert.KernelIdeal.Lstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the call finds them; after the body at point `t` each input's buffer at
    its block and each result's at its tile of the input blocks; nothing of the kernel's own; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
    | ⟨6, _⟩ => out6 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 (iblk m c 0 t) (iblk m c 1 t) (iblk m c 2 t) (iblk m c 3 t) (iblk m c 4 t) := by dsimp only [dats]
theorem after6 (c : Dev nD) (t : Fin cfg0.N) : (dats m 0 c).after 6 t = out6 (iblk m c 0 t) (iblk m c 1 t) (iblk m c 2 t) (iblk m c 3 t) (iblk m c 4 t) := by dsimp only [dats]

theorem held0 (c : Dev nD) (t : Fin cfg0.N) (d) : (dats m 0 c).before 0 t d = iblk m c 0 t :=
  held0_of m (dats m 0 c) (A_eq m c 0) (after0 m c) t d
theorem held1 (c : Dev nD) (t : Fin cfg0.N) (d) : (dats m 0 c).before 1 t d = iblk m c 1 t :=
  held1_of m (dats m 0 c) (A_eq m c 1) (after1 m c) t d
theorem held2 (c : Dev nD) (t : Fin cfg0.N) (d) : (dats m 0 c).before 2 t d = iblk m c 2 t :=
  held2_of m (dats m 0 c) (A_eq m c 2) (after2 m c) t d
theorem held3 (c : Dev nD) (t : Fin cfg0.N) (d) : (dats m 0 c).before 3 t d = iblk m c 3 t :=
  held3_of m (dats m 0 c) (A_eq m c 3) (after3 m c) t d
theorem held4 (c : Dev nD) (t : Fin cfg0.N) (d) : (dats m 0 c).before 4 t d = iblk m c 4 t :=
  held4_of m (dats m 0 c) (A_eq m c 4) (after4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point: the inputs' buffers hold their blocks, so the body's triple applies; the invariant and the
    core's debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, each array of the pipeline
    ends at what the proof data computes and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and every argument array is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Lstm

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LstmSpec.lean ====
/-
  The LSTM cell as one function of its fifteen arrays, index by index, on the extended reals.
  For batch row r and hidden column j, a gate with input weights W, recurrent weights U and bias b has the
  pre-activation
      pre(r, j) = (Σ_k x(r,k)·W(k,j) + Σ_k h(r,k)·U(k,j)) + b(j),
  the input, forget and output gates are the logistic function of theirs, the candidate is tanh of its own, and
      c'(r,j) = f·c(r,j) + i·g,        h'(r,j) = o·tanh(c'(r,j)).
  Also here: a sum over 2048 indices is the sum over the first 1024 plus the sum over the last 1024 — the one law that
  joins a single contraction of [x | h] against the weights stacked [W ; U] to the two separate contractions. It holds
  on the extended reals as in any commutative monoid: no finiteness is needed.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace LstmCell

abbrev SBH : Shape := ⟨2, ![8192, 1024]⟩
abbrev SHH : Shape := ⟨2, ![1024, 1024]⟩
abbrev SH : Shape := ⟨1, ![1024]⟩

/-- A gate's pre-activation at batch row `r`, hidden column `j`. -/
def pre (x h : FVec Ideal SBH .f32) (W U : FVec Ideal SHH .f32) (b : FVec Ideal SH .f32) (r : Fin 8192) (j : Fin 1024) : Ideal .f32 :=
  (∑ k : Fin 1024, x (ix2 r k) * W (ix2 k j) + ∑ k : Fin 1024, h (ix2 r k) * U (ix2 k j)) + b (ix1 j)

/-- The new cell state. -/
def cellC (x h c : FVec Ideal SBH .f32) (Wi Ui : FVec Ideal SHH .f32) (bi : FVec Ideal SH .f32)
    (Wf Uf : FVec Ideal SHH .f32) (bf : FVec Ideal SH .f32) (Wc Uc : FVec Ideal SHH .f32) (bc : FVec Ideal SH .f32)
    (r : Fin 8192) (j : Fin 1024) : Ideal .f32 :=
  Ideal.logistic (pre x h Wf Uf bf r j) * c (ix2 r j) + Ideal.logistic (pre x h Wi Ui bi r j) * Ideal.tanh (pre x h Wc Uc bc r j)

/-- The new hidden state. -/
def cellH (x h c : FVec Ideal SBH .f32) (Wi Ui : FVec Ideal SHH .f32) (bi : FVec Ideal SH .f32)
    (Wf Uf : FVec Ideal SHH .f32) (bf : FVec Ideal SH .f32) (Wo Uo : FVec Ideal SHH .f32) (bo : FVec Ideal SH .f32)
    (Wc Uc : FVec Ideal SHH .f32) (bc : FVec Ideal SH .f32) (r : Fin 8192) (j : Fin 1024) : Ideal .f32 :=
  Ideal.logistic (pre x h Wo Uo bo r j) * Ideal.tanh (cellC x h c Wi Ui bi Wf Uf bf Wc Uc bc r j)

/-- A sum over 2048 indices is the sum over the first 1024 plus the sum over the last 1024. -/
theorem sum_2048_split {M : Type*} [AddCommMonoid M] (f : Fin 2048 → M) :
    ∑ k : Fin 2048, f k = ∑ k : Fin 1024, f ⟨k.val, by omega⟩ + ∑ k : Fin 1024, f ⟨1024 + k.val, by omega⟩ :=
  Fin.sum_univ_add (a := 1024) (b := 1024) f

end LstmCell

end
-- ==== Proof.TileValue.lean ====
/-
  The body's two result tiles read at an index, on the extended reals.
  The body multiplies the [256, 2048] operand [x-tile | h-tile] (the two tiles side by side) by a [2048, 1024] column band
  of the stacked weights and adds the band's piece of the bias row, copied down the 256 rows. Read at (p, q) this is
      Σ_{k<2048} [x|h](p,k) · band(k, q)  +  biasPiece(0, q),
  and since column k of [x|h] is x's column k for k < 1024 and h's column k−1024 otherwise, the sum over 2048 splits
  into x's row against the upper half of the band plus h's row against the lower half. A change of float format is the
  identity here, so the bf16 casts drop out. The band that starts at column o of the stacked weights holds, at (k, q),
  the stacked weights at (k, o + q); likewise the bias piece.
-/
import proofs.«179591_j79645873537420_2_alg».proof.Proof.KernelIdealTile
import proofs.«179591_j79645873537420_2_alg».proof.Proof.LibDotRows
import proofs.«179591_j79645873537420_2_alg».proof.Proof.LstmSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Lstm

open Cert.KernelIdeal.Gen
open Idealize.ShloMosaic Idealize.ShloMosaic.ValueIdx
open scoped BigOperators

theorem hz2 : (![0, 0] : Fin 2 → Nat) = fun _ => 0 := funext fun a => by fin_cases a <;> rfl

/-- Column `k` of [x | h], for `k` in the left half, is x's column `k`. -/
theorem xh_left (x0 x1 : Vec Ideal S256x1024 .f32) (p : Fin 256) (k : Fin 1024) :
    k0_pay3 x0 x1 (ix2 p (⟨k.val, by omega⟩ : Fin 2048)) = x0 (ix2 p k) := by
  unfold k0_pay3
  refine (concatenate_pair_apply_left (t := S256x2048) (s₁ := S256x1024) (s₂ := S256x1024) (1 : Fin 2) _ _ _
    (ix2 p (⟨k.val, by omega⟩ : Fin 2048)) rfl (ix2 p k) fun b => ?_).trans rfl
  match b with
  | ⟨0, _⟩ => rfl
  | ⟨1, _⟩ => rfl

/-- Column `1024 + k` of [x | h] is h's column `k`. -/
theorem xh_right (x0 x1 : Vec Ideal S256x1024 .f32) (p : Fin 256) (k : Fin 1024) :
    k0_pay3 x0 x1 (ix2 p (⟨1024 + k.val, by omega⟩ : Fin 2048)) = x1 (ix2 p k) := by
  unfold k0_pay3
  refine (concatenate_pair_apply_right (t := S256x2048) (s₁ := S256x1024) (s₂ := S256x1024) (1 : Fin 2) _ _ _
    (ix2 p (⟨1024 + k.val, by omega⟩ : Fin 2048)) rfl rfl (ix2 p k) (fun b hb => ?_) ?_).trans rfl
  · match b with
    | ⟨0, _⟩ => rfl
    | ⟨1, _⟩ => exact absurd rfl hb
  · show k.val + 1024 = 1024 + k.val
    omega

/-- A gate's pre-activation on a tile from the two row tiles, the gate's band and its bias piece. -/
def tcore (x0 x1 : Vec Ideal S256x1024 .f32) (wg : FVec Ideal S2048x1024 .bf16) (bg : FVec Ideal S1x1024 .f32)
    (p : Fin 256) (q : Fin 1024) : Ideal .f32 :=
  (∑ k : Fin 1024, x0 (ix2 p k) * wg (ix2 (⟨k.val, by omega⟩ : Fin 2048) q)
    + ∑ k : Fin 1024, x1 (ix2 p k) * wg (ix2 (⟨1024 + k.val, by omega⟩ : Fin 2048) q))
  + bg (ix2 (0 : Fin 1) q)

/-- The product of [x | h] with a band, plus the band's bias piece copied down the rows, read at `(p, q)`. -/
theorem gate_core (x0 x1 : Vec Ideal S256x1024 .f32) (wg : FVec Ideal S2048x1024 .bf16) (bg : FVec Ideal S1x1024 .f32)
    (hw : S2048x1024.ShapeCasts S2048x1024) (hb : S1x1024.ShapeCasts S1x1024) (hbc : S1x1024.Broadcasts S256x1024)
    (p : Fin 256) (q : Fin 1024) :
    (matmul dot_S256x2048_S2048x1024_S256x1024_1_0_0_1_n_n none (k0_pay3 x0 x1)
        (shapeCast S2048x1024 wg hw : FVec Ideal S2048x1024 .bf16)
        (constant S256x1024 .f32 0x00000000#32) : FVec Ideal S256x1024 .f32) (ix2 p q)
      + (broadcastTo S256x1024 (shapeCast S1x1024 bg hb : FVec Ideal S1x1024 .f32) hbc : FVec Ideal S256x1024 .f32) (ix2 p q)
    = tcore x0 x1 wg bg p q := by
  rw [shapeCast_self, shapeCast_self]
  have hm : (matmul dot_S256x2048_S2048x1024_S256x1024_1_0_0_1_n_n none (k0_pay3 x0 x1) wg
        (constant S256x1024 .f32 0x00000000#32) : FVec Ideal S256x1024 .f32) (ix2 p q)
      = ∑ k : Fin 2048, k0_pay3 x0 x1 (ix2 p k) * wg (ix2 k q) :=
    ValueIdx.matmul_zero_rows dot_S256x2048_S2048x1024_S256x1024_1_0_0_1_n_n none rfl rfl
      (fun _ _ => rfl) (fun _ _ => rfl) (fun _ _ => rfl) (fun _ _ => rfl) (k0_pay3 x0 x1) wg p q
  rw [hm, broadcastTo_1b_ab_apply, LstmCell.sum_2048_split]
  unfold tcore
  congr 1
  congr 1
  · refine Finset.sum_congr rfl fun k _ => ?_
    rw [xh_left]
  · refine Finset.sum_congr rfl fun k _ => ?_
    rw [xh_right]

/-- The new cell state's tile at `(p, q)`. -/
theorem tileC_apply (x0 x1 x2 : Vec Ideal S256x1024 .f32) (x3 : Vec Ideal S2048x4096 .bf16) (x4 : Vec Ideal S1x4096 .f32)
    (p : Fin 256) (q : Fin 1024) :
    tileC x0 x1 x2 x3 x4 (ix2 p q)
      = Ideal.logistic (tcore x0 x1 (View.ld x3 rW1) (View.ld x4 rB1) p q) * x2 (ix2 p q)
        + Ideal.logistic (tcore x0 x1 (View.ld x3 rW0) (View.ld x4 rB0) p q)
          * Ideal.tanh (tcore x0 x1 (View.ld x3 rW3) (View.ld x4 rB3) p q) := by
  have g1 := gate_core x0 x1 (View.ld x3 rW1) (View.ld x4 rB1) shapeCasts_S2048x1024_S2048x1024 shapeCasts_S1x1024_S1x1024 broadcasts_S1x1024_S256x1024 p q
  have g0 := gate_core x0 x1 (View.ld x3 rW0) (View.ld x4 rB0) shapeCasts_S2048x1024_S2048x1024 shapeCasts_S1x1024_S1x1024 broadcasts_S1x1024_S256x1024 p q
  have g3 := gate_core x0 x1 (View.ld x3 rW3) (View.ld x4 rB3) shapeCasts_S2048x1024_S2048x1024 shapeCasts_S1x1024_S1x1024 broadcasts_S1x1024_S256x1024 p q
  unfold tileC k0_pay1 k0_pay4 k0_pay5 k0_pay7 k0_pay8
  try dsimp only
  rw [View.ld_unit_zero (S := S256x1024) hz2, View.ld_unit_zero (S := S256x1024) hz2, View.ld_unit_zero (S := S256x1024) hz2]
  rw [← g1, ← g0, ← g3]
  rfl

/-- The new hidden state's tile at `(p, q)`. -/
theorem tileH_apply (x0 x1 x2 : Vec Ideal S256x1024 .f32) (x3 : Vec Ideal S2048x4096 .bf16) (x4 : Vec Ideal S1x4096 .f32)
    (p : Fin 256) (q : Fin 1024) :
    tileH x0 x1 x2 x3 x4 (ix2 p q)
      = Ideal.logistic (tcore x0 x1 (View.ld x3 rW2) (View.ld x4 rB2) p q) * Ideal.tanh (tileC x0 x1 x2 x3 x4 (ix2 p q)) := by
  have g2 := gate_core x0 x1 (View.ld x3 rW2) (View.ld x4 rB2) shapeCasts_S2048x1024_S2048x1024 shapeCasts_S1x1024_S1x1024 broadcasts_S1x1024_S256x1024 p q
  have e : tileH x0 x1 x2 x3 x4 (ix2 p q)
      = FloatOps.mulf (k0_pay6 (View.ld x0 rT) (View.ld x1 rT) (View.ld x3 rW2) (View.ld x4 rB2) (ix2 p q))
          (FloatOps.tanh (tileC x0 x1 x2 x3 x4 (ix2 p q))) := rfl
  rw [e]
  unfold k0_pay6
  try dsimp only
  rw [View.ld_unit_zero (S := S256x1024) hz2, View.ld_unit_zero (S := S256x1024) hz2]
  rw [← g2]
  rfl

/-- The band of the stacked weights that starts at column `o`, read at `(k, q)`. -/
theorem band_apply (x3 : Vec Ideal S2048x4096 .bf16) (o : Nat) (ho : o + 1024 ≤ 4096)
    (inb : ∀ a, (![0, o] : Fin 2 → Nat) a + S2048x1024.size a ≤ S2048x4096.size a) (k : Fin 2048) (q : Fin 1024) :
    View.ld x3 (Rect.unit (s := S2048x4096) ![0, o] S2048x1024.size inb) (ix2 k q) = x3 (ix2 k (⟨o + q.val, by omega⟩ : Fin 4096)) := by
  show x3 _ = x3 _
  congr 1
  funext a
  apply Fin.ext
  match a with
  | ⟨0, _⟩ => show 0 + 1 * k.val = k.val; omega
  | ⟨1, _⟩ => show o + 1 * q.val = o + q.val; omega

/-- The piece of the bias row that starts at column `o`, read at `(u, q)`. -/
theorem bias_apply (x4 : Vec Ideal S1x4096 .f32) (o : Nat) (ho : o + 1024 ≤ 4096)
    (inb : ∀ a, (![0, o] : Fin 2 → Nat) a + S1x1024.size a ≤ S1x4096.size a) (u : Fin 1) (q : Fin 1024) :
    View.ld x4 (Rect.unit (s := S1x4096) ![0, o] S1x1024.size inb) (ix2 u q) = x4 (ix2 (0 : Fin 1) (⟨o + q.val, by omega⟩ : Fin 4096)) := by
  show x4 _ = x4 _
  congr 1
  funext a
  apply Fin.ext
  match a with
  | ⟨0, _⟩ => show 0 + 1 * u.val = 0; omega
  | ⟨1, _⟩ => show o + 1 * q.val = o + q.val; omega

/-- A gate's pre-activation on a tile is the specification's at array row `rw`, once each block the tile reads is known
    entry by entry: the two row tiles are rows `rw` of x and h, the band's upper half is W, its lower half U, the bias
    piece b. -/
theorem tcore_pure (X0 X1 : Vec Ideal S256x1024 .f32) (X3 : Vec Ideal S2048x4096 .bf16) (X4 : Vec Ideal S1x4096 .f32)
    (A0 A1 : FVec Ideal LstmCell.SBH .f32) (W U : FVec Ideal LstmCell.SHH .f32) (b : FVec Ideal LstmCell.SH .f32)
    (rw : Fin 8192) (o : Nat) (ho : o + 1024 ≤ 4096)
    (inbW : ∀ a, (![0, o] : Fin 2 → Nat) a + S2048x1024.size a ≤ S2048x4096.size a)
    (inbB : ∀ a, (![0, o] : Fin 2 → Nat) a + S1x1024.size a ≤ S1x4096.size a)
    (p : Fin 256) (q : Fin 1024)
    (h0 : ∀ k : Fin 1024, X0 (ix2 p k) = A0 (ix2 rw k)) (h1 : ∀ k : Fin 1024, X1 (ix2 p k) = A1 (ix2 rw k))
    (h3u : ∀ k : Fin 1024, X3 (ix2 (⟨k.val, by omega⟩ : Fin 2048) (⟨o + q.val, by omega⟩ : Fin 4096)) = W (ix2 k q))
    (h3l : ∀ k : Fin 1024, X3 (ix2 (⟨1024 + k.val, by omega⟩ : Fin 2048) (⟨o + q.val, by omega⟩ : Fin 4096)) = U (ix2 k q))
    (h4 : X4 (ix2 (0 : Fin 1) (⟨o + q.val, by omega⟩ : Fin 4096)) = b (ix1 q)) :
    tcore X0 X1 (View.ld X3 (Rect.unit (s := S2048x4096) ![0, o] S2048x1024.size inbW))
        (View.ld X4 (Rect.unit (s := S1x4096) ![0, o] S1x1024.size inbB)) p q
      = LstmCell.pre A0 A1 W U b rw q := by
  unfold tcore LstmCell.pre
  refine congrArg₂ (· + ·) (congrArg₂ (· + ·) (Finset.sum_congr rfl fun k _ => ?_) (Finset.sum_congr rfl fun k _ => ?_)) ?_
  · exact congrArg₂ (· * ·) (h0 k) ((band_apply X3 o ho inbW (⟨k.val, by omega⟩ : Fin 2048) q).trans (h3u k))
  · exact congrArg₂ (· * ·) (h1 k) ((band_apply X3 o ho inbW (⟨1024 + k.val, by omega⟩ : Fin 2048) q).trans (h3l k))
  · exact (bias_apply X4 o ho inbB (0 : Fin 1) q).trans h4

end Cert.KernelIdeal.Lstm

end
-- ==== Proof.LibCatPieces.lean ====
/-
  Four equal pieces joined along one axis, read at an index.  Four matrices [n, w] laid side by side make a matrix
  [n, W] with W = 4·w; its column g·w + q (g the piece, q the column inside the piece) at row k is piece g at (k, q).
  Four vectors [w] laid end to end make a vector [W]; its element g·w + q is piece g at q.  Both are the library's
  reading of a concatenation at an index, with the extents of the pieces before piece g summed to g·w.
-/
import Idealize.ShloMosaic.Lib.Pipeline.Value
import Idealize.ShloMosaic.Lib.ValueIdx

open Idealize.ShloMosaic Idealize.ShloMosaic.ValueIdx

namespace CatPieces

variable {α : Type}

/-- Four [n, w] matrices side by side: column `g·w + q` of row `k` is piece `g` at `(k, q)`. -/
theorem cat4_cols_apply {n w W : ℕ} (x0 x1 x2 x3 : (⟨2, ![n, w]⟩ : Shape).Idx → α)
    (h : Shape.Concatenates [(⟨2, ![n, w]⟩ : Shape), ⟨2, ![n, w]⟩, ⟨2, ![n, w]⟩, ⟨2, ![n, w]⟩] ⟨2, ![n, W]⟩ (1 : Fin 2))
    (g : Fin 4) (k : Fin n) (q : Fin w) (c : Fin W) (hc : c.val = g.val * w + q.val) :
    concatenate (⟨2, ![n, W]⟩ : Shape) (1 : Fin 2)
        [⟨(⟨2, ![n, w]⟩ : Shape), x0⟩, ⟨(⟨2, ![n, w]⟩ : Shape), x1⟩, ⟨(⟨2, ![n, w]⟩ : Shape), x2⟩, ⟨(⟨2, ![n, w]⟩ : Shape), x3⟩] h (ix2 k c)
      = (![x0, x1, x2, x3] g) (ix2 k q) := by
  refine concatenate_apply_piece (t := (⟨2, ![n, W]⟩ : Shape)) (1 : Fin 2)
    [⟨(⟨2, ![n, w]⟩ : Shape), x0⟩, ⟨(⟨2, ![n, w]⟩ : Shape), x1⟩, ⟨(⟨2, ![n, w]⟩ : Shape), x2⟩, ⟨(⟨2, ![n, w]⟩ : Shape), x3⟩] h (ix2 k c) g.val (by simp) (⟨2, ![n, w]⟩ : Shape) (![x0, x1, x2, x3] g) ?_ rfl
    (g.val * w) ?_ (ix2 k q) ?_ ?_
  · fin_cases g <;> rfl
  · fin_cases g <;> simp <;> ring
  · intro b hb
    match b with
    | ⟨0, _⟩ => rfl
    | ⟨1, _⟩ => exact absurd rfl hb
  · show g.val * w + q.val = c.val
    omega

/-- Four [w] vectors end to end: element `g·w + q` is piece `g` at `q`. -/
theorem cat4_vec_apply {w W : ℕ} (x0 x1 x2 x3 : (⟨1, ![w]⟩ : Shape).Idx → α)
    (h : Shape.Concatenates [(⟨1, ![w]⟩ : Shape), ⟨1, ![w]⟩, ⟨1, ![w]⟩, ⟨1, ![w]⟩] ⟨1, ![W]⟩ (0 : Fin 1))
    (g : Fin 4) (q : Fin w) (c : Fin W) (hc : c.val = g.val * w + q.val) :
    concatenate (⟨1, ![W]⟩ : Shape) (0 : Fin 1)
        [⟨(⟨1, ![w]⟩ : Shape), x0⟩, ⟨(⟨1, ![w]⟩ : Shape), x1⟩, ⟨(⟨1, ![w]⟩ : Shape), x2⟩, ⟨(⟨1, ![w]⟩ : Shape), x3⟩] h (ix1 c)
      = (![x0, x1, x2, x3] g) (ix1 q) := by
  refine concatenate_apply_piece (t := (⟨1, ![W]⟩ : Shape)) (0 : Fin 1)
    [⟨(⟨1, ![w]⟩ : Shape), x0⟩, ⟨(⟨1, ![w]⟩ : Shape), x1⟩, ⟨(⟨1, ![w]⟩ : Shape), x2⟩, ⟨(⟨1, ![w]⟩ : Shape), x3⟩] h (ix1 c) g.val (by simp) (⟨1, ![w]⟩ : Shape) (![x0, x1, x2, x3] g) ?_ rfl
    (g.val * w) ?_ (ix1 q) ?_ ?_
  · fin_cases g <;> rfl
  · fin_cases g <;> simp <;> ring
  · intro b hb
    match b with
    | ⟨0, _⟩ => exact absurd rfl hb
  · show g.val * w + q.val = c.val
    omega

end CatPieces
-- ==== Proof.KernelArrays.lean ====
/-
  From tiles to arrays. The host lines before the call write the stacked weights — the four input-weight matrices side
  by side over the four recurrent matrices side by side, so that row k < 1024, column g·1024 + q holds W_g(k, q) and row
  1024 + k holds U_g(k, q) — and the bias row, whose column g·1024 + q holds b_g(q). Point t of the grid reads rows
  t·256 … t·256 + 255 of x, h and c and the whole of those two operands, and writes rows t·256 … t·256 + 255 of the two
  results. The gate pre-activation the body computes on its tile is therefore the specification's at row t·256 + p, the
  tile it writes back is the specification's rows, and the 32 tiles cover all 8192 rows: each result array ends
  holding the specification everywhere.
-/
import proofs.«179591_j79645873537420_2_alg».proof.Proof.KernelIdealRun
import proofs.«179591_j79645873537420_2_alg».proof.Proof.TileValue
import proofs.«179591_j79645873537420_2_alg».proof.Proof.LibCatPieces
import Idealize.ShloMosaic.Lib.StableHlo.Run

set_option maxRecDepth 16384

noncomputable section

namespace Cert.KernelIdeal.Lstm

open Cert.KernelIdeal.Gen
open Idealize.ShloMosaic Idealize.ShloMosaic.TcCoe Idealize.ShloMosaic.ValueIdx Idealize.SL.Sem Idealize.ShloMosaic.StableHlo
open Idealize.ShloMosaic.Pipeline (Dat)
open LstmCell
open scoped BigOperators

variable (m : (ℓ : Loc nD τ sig) → Buf (Elt Ideal) ℓ) (ρ : Dev nD → PrngReg)

/-! ## The two operands the host builds -/

/-- The stacked weights as the call finds them. -/
theorem V_stacked (c : Dev nD) : @Eq (S2048x4096.Idx → Elt Ideal .bf16) (V m c main_v3)
    (truncf (F := Ideal) .bf16 (concatenate S2048x4096 0 [⟨S1024x4096, concatenate S1024x4096 1 [⟨S1024x1024, (m ((c : Thread nD τ).loc main_arg3) : S1024x1024.Idx → Elt Ideal .f32)⟩, ⟨S1024x1024, (m ((c : Thread nD τ).loc main_arg6) : S1024x1024.Idx → Elt Ideal .f32)⟩, ⟨S1024x1024, (m ((c : Thread nD τ).loc main_arg9) : S1024x1024.Idx → Elt Ideal .f32)⟩, ⟨S1024x1024, (m ((c : Thread nD τ).loc main_arg12) : S1024x1024.Idx → Elt Ideal .f32)⟩] concatenates_S1024x1024_S1024x1024_S1024x1024_S1024x1024_S1024x4096_d1⟩,
      ⟨S1024x4096, concatenate S1024x4096 1 [⟨S1024x1024, (m ((c : Thread nD τ).loc main_arg4) : S1024x1024.Idx → Elt Ideal .f32)⟩, ⟨S1024x1024, (m ((c : Thread nD τ).loc main_arg7) : S1024x1024.Idx → Elt Ideal .f32)⟩, ⟨S1024x1024, (m ((c : Thread nD τ).loc main_arg10) : S1024x1024.Idx → Elt Ideal .f32)⟩, ⟨S1024x1024, (m ((c : Thread nD τ).loc main_arg13) : S1024x1024.Idx → Elt Ideal .f32)⟩] concatenates_S1024x1024_S1024x1024_S1024x1024_S1024x1024_S1024x4096_d1⟩] concatenates_S1024x4096_S1024x4096_S2048x4096_d0) bitsLt_bf16_f32) := by
  dsimp only [V, hostOps0]
  after_results
  rfl

/-- The bias row as the call finds it. -/
theorem V_biasrow (c : Dev nD) : @Eq (S1x4096.Idx → Elt Ideal .f32) (V m c main_v5)
    (shapeCast S1x4096 (concatenate S4096 0 [⟨S1024, (m ((c : Thread nD τ).loc main_arg5) : S1024.Idx → Elt Ideal .f32)⟩, ⟨S1024, (m ((c : Thread nD τ).loc main_arg8) : S1024.Idx → Elt Ideal .f32)⟩, ⟨S1024, (m ((c : Thread nD τ).loc main_arg11) : S1024.Idx → Elt Ideal .f32)⟩, ⟨S1024, (m ((c : Thread nD τ).loc main_arg14) : S1024.Idx → Elt Ideal .f32)⟩] concatenates_S1024_S1024_S1024_S1024_S4096_d0) shapeCasts_S4096_S1x4096) := by
  dsimp only [V, hostOps0]
  after_results
  rfl

/-- Row `k < 1024`, column `g·1024 + q` of the stacked weights is `W_g(k, q)`. -/
theorem stacked_upper (c : Dev nD) (g : Fin 4) (k q : Fin 1024) (col : Fin 4096) (hc : col.val = g.val * 1024 + q.val) :
    (V m c main_v3 : S2048x4096.Idx → Elt Ideal .bf16) (ix2 (⟨k.val, by omega⟩ : Fin 2048) col)
      = (![m ((c : Thread nD τ).loc main_arg3), m ((c : Thread nD τ).loc main_arg6), m ((c : Thread nD τ).loc main_arg9), m ((c : Thread nD τ).loc main_arg12)] g) (ix2 k q) := by
  refine (congrFun (V_stacked m c) _).trans ?_
  show concatenate S2048x4096 0 [⟨S1024x4096, concatenate S1024x4096 1 [⟨S1024x1024, (m ((c : Thread nD τ).loc main_arg3) : S1024x1024.Idx → Elt Ideal .f32)⟩, ⟨S1024x1024, (m ((c : Thread nD τ).loc main_arg6) : S1024x1024.Idx → Elt Ideal .f32)⟩, ⟨S1024x1024, (m ((c : Thread nD τ).loc main_arg9) : S1024x1024.Idx → Elt Ideal .f32)⟩, ⟨S1024x1024, (m ((c : Thread nD τ).loc main_arg12) : S1024x1024.Idx → Elt Ideal .f32)⟩] concatenates_S1024x1024_S1024x1024_S1024x1024_S1024x1024_S1024x4096_d1⟩, ⟨S1024x4096, concatenate S1024x4096 1 [⟨S1024x1024, (m ((c : Thread nD τ).loc main_arg4) : S1024x1024.Idx → Elt Ideal .f32)⟩, ⟨S1024x1024, (m ((c : Thread nD τ).loc main_arg7) : S1024x1024.Idx → Elt Ideal .f32)⟩, ⟨S1024x1024, (m ((c : Thread nD τ).loc main_arg10) : S1024x1024.Idx → Elt Ideal .f32)⟩, ⟨S1024x1024, (m ((c : Thread nD τ).loc main_arg13) : S1024x1024.Idx → Elt Ideal .f32)⟩] concatenates_S1024x1024_S1024x1024_S1024x1024_S1024x1024_S1024x4096_d1⟩] concatenates_S1024x4096_S1024x4096_S2048x4096_d0 (ix2 (⟨k.val, by omega⟩ : Fin 2048) col) = _
  refine (concatenate_pair_apply_left (t := S2048x4096) (s₁ := S1024x4096) (s₂ := S1024x4096) (0 : Fin 2) _ _ _
    (ix2 (⟨k.val, by omega⟩ : Fin 2048) col) rfl (ix2 k col) fun b => ?_).trans ?_
  · match b with
    | ⟨0, _⟩ => rfl
    | ⟨1, _⟩ => rfl
  · exact CatPieces.cat4_cols_apply _ _ _ _ _ g k q col hc

/-- Row `1024 + k`, column `g·1024 + q` of the stacked weights is `U_g(k, q)`. -/
theorem stacked_lower (c : Dev nD) (g : Fin 4) (k q : Fin 1024) (col : Fin 4096) (hc : col.val = g.val * 1024 + q.val) :
    (V m c main_v3 : S2048x4096.Idx → Elt Ideal .bf16) (ix2 (⟨1024 + k.val, by omega⟩ : Fin 2048) col)
      = (![m ((c : Thread nD τ).loc main_arg4), m ((c : Thread nD τ).loc main_arg7), m ((c : Thread nD τ).loc main_arg10), m ((c : Thread nD τ).loc main_arg13)] g) (ix2 k q) := by
  refine (congrFun (V_stacked m c) _).trans ?_
  show concatenate S2048x4096 0 [⟨S1024x4096, concatenate S1024x4096 1 [⟨S1024x1024, (m ((c : Thread nD τ).loc main_arg3) : S1024x1024.Idx → Elt Ideal .f32)⟩, ⟨S1024x1024, (m ((c : Thread nD τ).loc main_arg6) : S1024x1024.Idx → Elt Ideal .f32)⟩, ⟨S1024x1024, (m ((c : Thread nD τ).loc main_arg9) : S1024x1024.Idx → Elt Ideal .f32)⟩, ⟨S1024x1024, (m ((c : Thread nD τ).loc main_arg12) : S1024x1024.Idx → Elt Ideal .f32)⟩] concatenates_S1024x1024_S1024x1024_S1024x1024_S1024x1024_S1024x4096_d1⟩, ⟨S1024x4096, concatenate S1024x4096 1 [⟨S1024x1024, (m ((c : Thread nD τ).loc main_arg4) : S1024x1024.Idx → Elt Ideal .f32)⟩, ⟨S1024x1024, (m ((c : Thread nD τ).loc main_arg7) : S1024x1024.Idx → Elt Ideal .f32)⟩, ⟨S1024x1024, (m ((c : Thread nD τ).loc main_arg10) : S1024x1024.Idx → Elt Ideal .f32)⟩, ⟨S1024x1024, (m ((c : Thread nD τ).loc main_arg13) : S1024x1024.Idx → Elt Ideal .f32)⟩] concatenates_S1024x1024_S1024x1024_S1024x1024_S1024x1024_S1024x4096_d1⟩] concatenates_S1024x4096_S1024x4096_S2048x4096_d0 (ix2 (⟨1024 + k.val, by omega⟩ : Fin 2048) col) = _
  refine (concatenate_pair_apply_right (t := S2048x4096) (s₁ := S1024x4096) (s₂ := S1024x4096) (0 : Fin 2) _ _ _
    (ix2 (⟨1024 + k.val, by omega⟩ : Fin 2048) col) rfl rfl (ix2 k col) (fun b hb => ?_) ?_).trans ?_
  · match b with
    | ⟨0, _⟩ => exact absurd rfl hb
    | ⟨1, _⟩ => rfl
  · show k.val + 1024 = 1024 + k.val
    omega
  · exact CatPieces.cat4_cols_apply _ _ _ _ _ g k q col hc

/-- Column `g·1024 + q` of the bias row is `b_g(q)`. -/
theorem biasrow_apply (c : Dev nD) (g : Fin 4) (q : Fin 1024) (col : Fin 4096) (hc : col.val = g.val * 1024 + q.val) :
    (V m c main_v5 : S1x4096.Idx → Elt Ideal .f32) (ix2 (0 : Fin 1) col)
      = (![m ((c : Thread nD τ).loc main_arg5), m ((c : Thread nD τ).loc main_arg8), m ((c : Thread nD τ).loc main_arg11), m ((c : Thread nD τ).loc main_arg14)] g) (ix1 q) := by
  refine (congrFun (V_biasrow m c) _).trans ?_
  refine (shapeCast_a_1a_apply _ _ (0 : Fin 1) col).trans ?_
  exact CatPieces.cat4_vec_apply _ _ _ _ _ g q col hc

/-! ## The blocks a point reads -/

/-- Where each window's block sits at point `t`: the row tiles at block row `t`, the two host-built operands whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of point `t`'s tile is row `t·256 + p` of the array. -/
def row (t : Fin cfg0.N) (p : Fin 256) : Fin 8192 :=
  ⟨t.val * 256 + p.val, by have h1 := t.isLt; have h2 : cfg0.N = 32 := N_0; have h3 := p.isLt; omega⟩

theorem blk0_apply (c : Dev nD) (t : Fin cfg0.N) (p : Fin 256) (k : Fin 1024) :
    (iblk m c 0 t : S256x1024.Idx → Elt Ideal .f32) (ix2 p k) = m ((c : Thread nD τ).loc main_arg0) (ix2 (row t p) k) := by
  show V m c main_arg0 (((cfg0.win 0).blk t).view.emb (ix2 p k)) = _
  rw [V_main_arg0]
  congr 1
  obtain ⟨e00, e01, e10, e11, e20, e21, -⟩ := idx_facts t
  funext a
  apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega

theorem blk1_apply (c : Dev nD) (t : Fin cfg0.N) (p : Fin 256) (k : Fin 1024) :
    (iblk m c 1 t : S256x1024.Idx → Elt Ideal .f32) (ix2 p k) = m ((c : Thread nD τ).loc main_arg1) (ix2 (row t p) k) := by
  show V m c main_arg1 (((cfg0.win 1).blk t).view.emb (ix2 p k)) = _
  rw [V_main_arg1]
  congr 1
  obtain ⟨e00, e01, e10, e11, e20, e21, -⟩ := idx_facts t
  funext a
  apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega

theorem blk2_apply (c : Dev nD) (t : Fin cfg0.N) (p : Fin 256) (k : Fin 1024) :
    (iblk m c 2 t : S256x1024.Idx → Elt Ideal .f32) (ix2 p k) = m ((c : Thread nD τ).loc main_arg2) (ix2 (row t p) k) := by
  show V m c main_arg2 (((cfg0.win 2).blk t).view.emb (ix2 p k)) = _
  rw [V_main_arg2]
  congr 1
  obtain ⟨e00, e01, e10, e11, e20, e21, -⟩ := idx_facts t
  funext a
  apply Fin.ext
  match a with
  | ⟨0, _⟩ => show win0_2.index t (0 : Fin 2) * 256 + 1 * p.val = t.val * 256 + p.val; omega
  | ⟨1, _⟩ => show win0_2.index t (1 : Fin 2) * 1024 + 1 * k.val = k.val; omega

theorem blk3_apply (c : Dev nD) (t : Fin cfg0.N) (k : Fin 2048) (col : Fin 4096) :
    (iblk m c 3 t : S2048x4096.Idx → Elt Ideal .bf16) (ix2 k col) = (V m c main_v3 : S2048x4096.Idx → Elt Ideal .bf16) (ix2 k col) := by
  show V m c main_v3 (((cfg0.win 3).blk t).view.emb (ix2 k col)) = _
  congr 1
  obtain ⟨-, -, -, -, -, -, e30, e31, -⟩ := idx_facts t
  funext a
  apply Fin.ext
  match a with
  | ⟨0, _⟩ => show win0_3.index t (0 : Fin 2) * 2048 + 1 * k.val = k.val; omega
  | ⟨1, _⟩ => show win0_3.index t (1 : Fin 2) * 4096 + 1 * col.val = col.val; omega

theorem blk4_apply (c : Dev nD) (t : Fin cfg0.N) (u : Fin 1) (col : Fin 4096) :
    (iblk m c 4 t : S1x4096.Idx → Elt Ideal .f32) (ix2 u col) = (V m c main_v5 : S1x4096.Idx → Elt Ideal .f32) (ix2 (0 : Fin 1) col) := by
  show V m c main_v5 (((cfg0.win 4).blk t).view.emb (ix2 u col)) = _
  congr 1
  obtain ⟨-, -, -, -, -, -, -, -, e40, e41, -⟩ := idx_facts t
  funext a
  apply Fin.ext
  match a with
  | ⟨0, _⟩ => show win0_4.index t (0 : Fin 2) * 1 + 1 * u.val = 0; omega
  | ⟨1, _⟩ => show win0_4.index t (1 : Fin 2) * 4096 + 1 * col.val = col.val; omega

/-! ## A gate's pre-activation on point `t`'s tile is the specification's at row `t·256 + p` -/

theorem tcore_eq (c : Dev nD) (t : Fin cfg0.N) (g : Fin 4) (o : Nat) (hog : o = g.val * 1024)
    (inbW : ∀ a, (![0, o] : Fin 2 → Nat) a + S2048x1024.size a ≤ S2048x4096.size a)
    (inbB : ∀ a, (![0, o] : Fin 2 → Nat) a + S1x1024.size a ≤ S1x4096.size a)
    (W U : FVec Ideal SHH .f32) (b : FVec Ideal SH .f32)
    (hW : ![m ((c : Thread nD τ).loc main_arg3), m ((c : Thread nD τ).loc main_arg6), m ((c : Thread nD τ).loc main_arg9), m ((c : Thread nD τ).loc main_arg12)] g = W)
    (hU : ![m ((c : Thread nD τ).loc main_arg4), m ((c : Thread nD τ).loc main_arg7), m ((c : Thread nD τ).loc main_arg10), m ((c : Thread nD τ).loc main_arg13)] g = U)
    (hb : ![m ((c : Thread nD τ).loc main_arg5), m ((c : Thread nD τ).loc main_arg8), m ((c : Thread nD τ).loc main_arg11), m ((c : Thread nD τ).loc main_arg14)] g = b)
    (p : Fin 256) (q : Fin 1024) :
    tcore (iblk m c 0 t) (iblk m c 1 t)
        (View.ld (iblk m c 3 t : Vec Ideal S2048x4096 .bf16) (Rect.unit (s := S2048x4096) ![0, o] S2048x1024.size inbW))
        (View.ld (iblk m c 4 t : Vec Ideal S1x4096 .f32) (Rect.unit (s := S1x4096) ![0, o] S1x1024.size inbB)) p q
      = pre (m ((c : Thread nD τ).loc main_arg0)) (m ((c : Thread nD τ).loc main_arg1)) W U b (row t p) q := by
  subst hW hU hb
  have ho : o + 1024 ≤ 4096 := by have := g.isLt; omega
  have hc : ((⟨o + q.val, by omega⟩ : Fin 4096)).val = g.val * 1024 + q.val := by show o + q.val = _; omega
  have h0 : ∀ k : Fin 1024, (iblk m c 0 t : S256x1024.Idx → Elt Ideal .f32) (ix2 p k) = m ((c : Thread nD τ).loc main_arg0) (ix2 (row t p) k) :=
    fun k => blk0_apply m c t p k
  have h1 : ∀ k : Fin 1024, (iblk m c 1 t : S256x1024.Idx → Elt Ideal .f32) (ix2 p k) = m ((c : Thread nD τ).loc main_arg1) (ix2 (row t p) k) :=
    fun k => blk1_apply m c t p k
  have h3u : ∀ k : Fin 1024, (iblk m c 3 t : S2048x4096.Idx → Elt Ideal .bf16) (ix2 (⟨k.val, by omega⟩ : Fin 2048) (⟨o + q.val, by omega⟩ : Fin 4096))
      = (![m ((c : Thread nD τ).loc main_arg3), m ((c : Thread nD τ).loc main_arg6), m ((c : Thread nD τ).loc main_arg9), m ((c : Thread nD τ).loc main_arg12)] g) (ix2 k q) := fun k =>
    (blk3_apply m c t (⟨k.val, by omega⟩ : Fin 2048) (⟨o + q.val, by omega⟩ : Fin 4096)).trans
      (stacked_upper m c g k q (⟨o + q.val, by omega⟩ : Fin 4096) hc)
  have h3l : ∀ k : Fin 1024, (iblk m c 3 t : S2048x4096.Idx → Elt Ideal .bf16) (ix2 (⟨1024 + k.val, by omega⟩ : Fin 2048) (⟨o + q.val, by omega⟩ : Fin 4096))
      = (![m ((c : Thread nD τ).loc main_arg4), m ((c : Thread nD τ).loc main_arg7), m ((c : Thread nD τ).loc main_arg10), m ((c : Thread nD τ).loc main_arg13)] g) (ix2 k q) := fun k =>
    (blk3_apply m c t (⟨1024 + k.val, by omega⟩ : Fin 2048) (⟨o + q.val, by omega⟩ : Fin 4096)).trans
      (stacked_lower m c g k q (⟨o + q.val, by omega⟩ : Fin 4096) hc)
  have h4 : (iblk m c 4 t : S1x4096.Idx → Elt Ideal .f32) (ix2 (0 : Fin 1) (⟨o + q.val, by omega⟩ : Fin 4096))
      = (![m ((c : Thread nD τ).loc main_arg5), m ((c : Thread nD τ).loc main_arg8), m ((c : Thread nD τ).loc main_arg11), m ((c : Thread nD τ).loc main_arg14)] g) (ix1 q) :=
    (blk4_apply m c t (0 : Fin 1) (⟨o + q.val, by omega⟩ : Fin 4096)).trans
      (biasrow_apply m c g q (⟨o + q.val, by omega⟩ : Fin 4096) hc)
  exact tcore_pure (iblk m c 0 t) (iblk m c 1 t) (iblk m c 3 t) (iblk m c 4 t) (m ((c : Thread nD τ).loc main_arg0)) (m ((c : Thread nD τ).loc main_arg1)) _ _ _
    (row t p) o ho inbW inbB p q h0 h1 h3u h3l h4

/-! ## The arrays after the run -/

/-- The new cell state, as an array. -/
def GC (c : Dev nD) : S8192x1024.Idx → Elt Ideal .f32 := fun i => cellC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (i 0) (i 1)
/-- The new hidden state, as an array. -/
def GH (c : Dev nD) : S8192x1024.Idx → Elt Ideal .f32 := fun i => cellH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (i 0) (i 1)

/-- Point `t`'s tile of the new cell state is the specification's rows `t·256 …`. -/
theorem tileC_eq (c : Dev nD) (t : Fin cfg0.N) (p : Fin 256) (q : Fin 1024) :
    tileC (iblk m c 0 t) (iblk m c 1 t) (iblk m c 2 t) (iblk m c 3 t) (iblk m c 4 t) (ix2 p q) = cellC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (row t p) q := by
  refine (tileC_apply (iblk m c 0 t) (iblk m c 1 t) (iblk m c 2 t) (iblk m c 3 t) (iblk m c 4 t) p q).trans ?_
  unfold cellC
  exact congrArg₂ (· + ·)
    (congrArg₂ (· * ·) (congrArg Ideal.logistic (tcore_eq m c t 1 1024 (by decide) _ _ _ _ _ rfl rfl rfl p q)) (blk2_apply m c t p q))
    (congrArg₂ (· * ·) (congrArg Ideal.logistic (tcore_eq m c t 0 0 (by decide) _ _ _ _ _ rfl rfl rfl p q)) (congrArg Ideal.tanh (tcore_eq m c t 3 3072 (by decide) _ _ _ _ _ rfl rfl rfl p q)))

/-- Point `t`'s tile of the new hidden state is the specification's rows `t·256 …`. -/
theorem tileH_eq (c : Dev nD) (t : Fin cfg0.N) (p : Fin 256) (q : Fin 1024) :
    tileH (iblk m c 0 t) (iblk m c 1 t) (iblk m c 2 t) (iblk m c 3 t) (iblk m c 4 t) (ix2 p q) = cellH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (row t p) q := by
  refine (tileH_apply (iblk m c 0 t) (iblk m c 1 t) (iblk m c 2 t) (iblk m c 3 t) (iblk m c 4 t) p q).trans ?_
  unfold cellH
  exact congrArg₂ (· * ·) (congrArg Ideal.logistic (tcore_eq m c t 2 2048 (by decide) _ _ _ _ _ rfl rfl rfl p q)) (congrArg Ideal.tanh (tileC_eq m c t p q))

/-- Where point `t`'s block of result window 5 sits in its array. -/
theorem emb5 (t : Fin cfg0.N) (p : Fin 256) (q : Fin 1024) :
    ((cfg0.win 5).blk t).view.emb (ix2 p q) = ix2 (row t p) q := by
  obtain ⟨-, -, -, -, -, -, -, -, -, -, e50, e51, e60, e61⟩ := idx_facts t
  funext a
  apply Fin.ext
  match a with
  | ⟨0, _⟩ => show win0_5.index t (0 : Fin 2) * 256 + 1 * p.val = t.val * 256 + p.val; omega
  | ⟨1, _⟩ => show win0_5.index t (1 : Fin 2) * 1024 + 1 * q.val = q.val; omega

/-- What point `t` writes back through window 5 is block `t` of the specification. -/
theorem flushed5_eq (c : Dev nD) (t : Fin cfg0.N) :
    (dats m 0 c).flushed 5 t = ((cfg0.win 5).blk t).view.read (Elt Ideal) (GH m c) := by
  show (cfg0.win 5).cut (grid0.coords t) ((dats m 0 c).after 5 t) = _
  rw [after5]
  unfold out5
  rw [View.canon_unit_zero hz2]
  funext y
  obtain ⟨p, q, rfl⟩ : ∃ (p : Fin 256) (q : Fin 1024), y = ix2 p q := ⟨y 0, y 1, eq_ix2 y⟩
  show tileH (iblk m c 0 t) (iblk m c 1 t) (iblk m c 2 t) (iblk m c 3 t) (iblk m c 4 t) (ix2 p q) = GH m c (((cfg0.win 5).blk t).view.emb (ix2 p q))
  rw [emb5]
  exact tileH_eq m c t p q

theorem mem_blk5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v6_0).slice (win0_5.rect t)).set ↔ _
  rw [View.set_slice_whole, Rect.mem_set_unit]
  exact Iff.rfl

/-- The 32 row tiles cover the array. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 32 := N_0
  refine ⟨⟨(i 0).val / 256, by omega⟩, flush0_5 _, ?_⟩
  rw [mem_blk5]
  obtain ⟨-, -, -, -, -, -, -, -, -, -, e50, e51, e60, e61⟩ := idx_facts ⟨(i 0).val / 256, by omega⟩
  intro a
  match a with
  | ⟨0, _⟩ =>
    show win0_5.index _ (0 : Fin 2) * 256 ≤ (i 0).val ∧ (i 0).val < win0_5.index _ (0 : Fin 2) * 256 + 256
    rw [e50]
    show (i 0).val / 256 * 256 ≤ (i 0).val ∧ (i 0).val < (i 0).val / 256 * 256 + 256
    omega
  | ⟨1, _⟩ =>
    show win0_5.index _ (1 : Fin 2) * 1024 ≤ (i 1).val ∧ (i 1).val < win0_5.index _ (1 : Fin 2) * 1024 + 1024
    rw [e51]
    omega

/-- The array of result window 5 after the run. -/
theorem final5 (c : Dev nD) : (dats m 0 c).arrAt 5 cfg0.N = GH m c :=
  (dats m 0 c).arrAt_eq_of_cover 5 (GH m c) (fun t _ => flushed5_eq m c t) (cover5)

/-- Where point `t`'s block of result window 6 sits in its array. -/
theorem emb6 (t : Fin cfg0.N) (p : Fin 256) (q : Fin 1024) :
    ((cfg0.win 6).blk t).view.emb (ix2 p q) = ix2 (row t p) q := by
  obtain ⟨-, -, -, -, -, -, -, -, -, -, e50, e51, e60, e61⟩ := idx_facts t
  funext a
  apply Fin.ext
  match a with
  | ⟨0, _⟩ => show win0_6.index t (0 : Fin 2) * 256 + 1 * p.val = t.val * 256 + p.val; omega
  | ⟨1, _⟩ => show win0_6.index t (1 : Fin 2) * 1024 + 1 * q.val = q.val; omega

/-- What point `t` writes back through window 6 is block `t` of the specification. -/
theorem flushed6_eq (c : Dev nD) (t : Fin cfg0.N) :
    (dats m 0 c).flushed 6 t = ((cfg0.win 6).blk t).view.read (Elt Ideal) (GC m c) := by
  show (cfg0.win 6).cut (grid0.coords t) ((dats m 0 c).after 6 t) = _
  rw [after6]
  unfold out6
  rw [View.canon_unit_zero hz2]
  funext y
  obtain ⟨p, q, rfl⟩ : ∃ (p : Fin 256) (q : Fin 1024), y = ix2 p q := ⟨y 0, y 1, eq_ix2 y⟩
  show tileC (iblk m c 0 t) (iblk m c 1 t) (iblk m c 2 t) (iblk m c 3 t) (iblk m c 4 t) (ix2 p q) = GC m c (((cfg0.win 6).blk t).view.emb (ix2 p q))
  rw [emb6]
  exact tileC_eq m c t p q

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_1).slice (win0_6.rect t)).set ↔ _
  rw [View.set_slice_whole, Rect.mem_set_unit]
  exact Iff.rfl

/-- The 32 row tiles cover the array. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  refine ⟨⟨(i 0).val / 256, by omega⟩, flush0_6 _, ?_⟩
  rw [mem_blk6]
  obtain ⟨-, -, -, -, -, -, -, -, -, -, e50, e51, e60, e61⟩ := idx_facts ⟨(i 0).val / 256, by omega⟩
  intro a
  match a with
  | ⟨0, _⟩ =>
    show win0_6.index _ (0 : Fin 2) * 256 ≤ (i 0).val ∧ (i 0).val < win0_6.index _ (0 : Fin 2) * 256 + 256
    rw [e60]
    show (i 0).val / 256 * 256 ≤ (i 0).val ∧ (i 0).val < (i 0).val / 256 * 256 + 256
    omega
  | ⟨1, _⟩ =>
    show win0_6.index _ (1 : Fin 2) * 1024 ≤ (i 1).val ∧ (i 1).val < win0_6.index _ (1 : Fin 2) * 1024 + 1024
    rw [e61]
    omega

/-- The array of result window 6 after the run. -/
theorem final6 (c : Dev nD) : (dats m 0 c).arrAt 6 cfg0.N = GC m c :=
  (dats m 0 c).arrAt_eq_of_cover 6 (GC m c) (fun t _ => flushed6_eq m c t) (cover6)

/-- The run, with both result arrays named — the new hidden state and the new cell state of the arguments — and every
    argument array as launched. -/
theorem run_values : θ_run defs (onTc (τ := τ) (main (F := Ideal))) ⟨m, fun _ => 0, ρ⟩ (fun r => ∀ c : Dev nD,
      r.2.mem ((c.tc : Thread nD τ).loc main_v6_0) = GH m c
      ∧ r.2.mem ((c.tc : Thread nD τ).loc main_v6_1) = GC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Lstm

end
-- ==== Proof.RefGates.lean ====
/-
  The reference program, stage by stage, is the specification.
  It multiplies x by the four input-weight matrices laid side by side and h by the four recurrent matrices laid side by
  side, adds the two products and the four biases laid end to end (copied down the rows), and cuts the [8192, 4096]
  result into four [8192, 1024] column bands. Column g·1024 + q of the sum is therefore gate g's pre-activation at
  column q: the side-by-side matrix at column g·1024 + q is matrix g at column q. The reference writes the logistic
  function as 1 / (1 + exp(−z)), which on the extended reals is the very definition of the logistic function.
-/
import proofs.«179591_j79645873537420_2_alg».proof.Proof.Gen.ReferenceIdeal.Read
import proofs.«179591_j79645873537420_2_alg».proof.Proof.LstmSpec
import proofs.«179591_j79645873537420_2_alg».proof.Proof.LibCatPieces
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.ValueIdx LstmCell
open scoped BigOperators

variable (x0 x1 x2 : (⟨S8192x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal))
  (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal))

/-- Column `g·1024 + q` of the summed products plus biases, at row `r`, is gate `g`'s pre-activation at `(r, q)`. -/
theorem gates_apply (r : Fin 8192) (g : Fin 4) (q : Fin 1024) (col : Fin 4096) (hc : col.val = g.val * 1024 + q.val)
    (W U : (⟨S1024x1024, .f32⟩ : BufTy).Contents (Elt Ideal)) (b : (⟨S1024, .f32⟩ : BufTy).Contents (Elt Ideal))
    (hW : ![x3, x6, x9, x12] g = W) (hU : ![x4, x7, x10, x13] g = U) (hb : ![x5, x8, x11, x14] g = b) :
    val_main_v8 (F := Ideal) x0 x1 x3 x4 x5 x6 x7 x8 x9 x10 x11 x12 x13 x14 (ix2 r col) = pre x0 x1 W U b r q := by
  subst hW hU hb
  rw [val_main_v8_apply, val_main_v5_apply, val_main_v3_apply, val_main_v4_apply, val_main_v7_apply, val_main_v6_apply]
  unfold pre val_main_v0 val_main_v1 val_main_v2
  have el3 : ∀ k : Fin 1024, lidx_main_v3 (ix2 r col) k = ix2 r k := fun k =>
    funext fun a => Fin.ext (by match a with | ⟨0, _⟩ => rfl | ⟨1, _⟩ => rfl)
  have er3 : ∀ k : Fin 1024, ridx_main_v3 (ix2 r col) k = ix2 k col := fun k =>
    funext fun a => Fin.ext (by match a with | ⟨0, _⟩ => rfl | ⟨1, _⟩ => rfl)
  have el4 : ∀ k : Fin 1024, lidx_main_v4 (ix2 r col) k = ix2 r k := fun k =>
    funext fun a => Fin.ext (by match a with | ⟨0, _⟩ => rfl | ⟨1, _⟩ => rfl)
  have er4 : ∀ k : Fin 1024, ridx_main_v4 (ix2 r col) k = ix2 k col := fun k =>
    funext fun a => Fin.ext (by match a with | ⟨0, _⟩ => rfl | ⟨1, _⟩ => rfl)
  have eb : idx_main_v6 (idx_main_v7 (ix2 r col)) = ix1 col :=
    funext fun a => Fin.ext (by match a with | ⟨0, _⟩ => rfl)
  simp only [el3, er3, el4, er4, eb]
  show (∑ k : Fin 1024, _) + (∑ k : Fin 1024, _) + _ = _
  congr 1
  · congr 1
    · refine Finset.sum_congr rfl fun k _ => ?_
      exact congrArg (x0 (ix2 r k) * ·) (CatPieces.cat4_cols_apply x3 x6 x9 x12 _ g k q col hc)
    · refine Finset.sum_congr rfl fun k _ => ?_
      exact congrArg (x1 (ix2 r k) * ·) (CatPieces.cat4_cols_apply x4 x7 x10 x13 _ g k q col hc)
  · exact CatPieces.cat4_vec_apply x5 x8 x11 x14 _ g q col hc

/-- The reference's second result is the new cell state. -/
theorem cell_apply (r : Fin 8192) (q : Fin 1024) :
    val_main_v34 (F := Ideal) x0 x1 x2 x3 x4 x5 x6 x7 x8 x9 x10 x11 x12 x13 x14 (ix2 r q) = cellC x0 x1 x2 x3 x4 x5 x6 x7 x8 x12 x13 x14 r q := by
  have e9 : idx_main_v9 (ix2 r q) = ix2 r (⟨q.val, by omega⟩ : Fin 4096) :=
    funext fun a => Fin.ext (by match a with | ⟨0, _⟩ => rfl | ⟨1, _⟩ => rfl)
  have e10 : idx_main_v10 (ix2 r q) = ix2 r (⟨1024 + q.val, by omega⟩ : Fin 4096) :=
    funext fun a => Fin.ext (by match a with | ⟨0, _⟩ => rfl | ⟨1, _⟩ => rfl)
  have e12 : idx_main_v12 (ix2 r q) = ix2 r (⟨3072 + q.val, by omega⟩ : Fin 4096) :=
    funext fun a => Fin.ext (by match a with | ⟨0, _⟩ => rfl | ⟨1, _⟩ => rfl)
  simp only [val_main_v36_apply, val_main_v35_apply, val_main_v34_apply, val_main_v32_apply, val_main_v33_apply, val_main_v30_apply, val_main_v29_apply, val_main_cst_4_apply, val_main_v28_apply, val_main_v27_apply, val_main_cst_3_apply, val_main_v26_apply, val_main_v25_apply, val_main_v24_apply, val_main_v23_apply, val_main_cst_2_apply, val_main_v22_apply, val_main_v21_apply, val_main_cst_1_apply, val_main_v20_apply, val_main_v19_apply, val_main_v18_apply, val_main_v17_apply, val_main_cst_0_apply, val_main_v16_apply, val_main_v15_apply, val_main_cst_apply, val_main_v14_apply, val_main_v13_apply, val_main_v31_apply, val_main_v9_apply, val_main_v10_apply, val_main_v11_apply, val_main_v12_apply, e9, e10, e12]
  rw [gates_apply x0 x1 x3 x4 x5 x6 x7 x8 x9 x10 x11 x12 x13 x14 r 0 q (⟨q.val, by omega⟩ : Fin 4096) (by show q.val = 0 * 1024 + q.val; omega) x3 x4 x5 rfl rfl rfl,
    gates_apply x0 x1 x3 x4 x5 x6 x7 x8 x9 x10 x11 x12 x13 x14 r 1 q (⟨1024 + q.val, by omega⟩ : Fin 4096) (by show 1024 + q.val = 1 * 1024 + q.val; omega) x6 x7 x8 rfl rfl rfl,
    gates_apply x0 x1 x3 x4 x5 x6 x7 x8 x9 x10 x11 x12 x13 x14 r 3 q (⟨3072 + q.val, by omega⟩ : Fin 4096) (by show 3072 + q.val = 3 * 1024 + q.val; omega) x12 x13 x14 rfl rfl rfl]
  unfold cellC
  simp only [Ideal.ofBits_def, Ideal.ofBits_one_f32]
  rfl

/-- The reference's first result is the new hidden state. -/
theorem hidden_apply (r : Fin 8192) (q : Fin 1024) :
    val_main_v36 (F := Ideal) x0 x1 x2 x3 x4 x5 x6 x7 x8 x9 x10 x11 x12 x13 x14 (ix2 r q) = cellH x0 x1 x2 x3 x4 x5 x6 x7 x8 x9 x10 x11 x12 x13 x14 r q := by
  have hc := cell_apply x0 x1 x2 x3 x4 x5 x6 x7 x8 x9 x10 x11 x12 x13 x14 r q
  have e11 : idx_main_v11 (ix2 r q) = ix2 r (⟨2048 + q.val, by omega⟩ : Fin 4096) :=
    funext fun a => Fin.ext (by match a with | ⟨0, _⟩ => rfl | ⟨1, _⟩ => rfl)
  rw [val_main_v36_apply, val_main_v35_apply, hc]
  simp only [val_main_v30_apply, val_main_v29_apply, val_main_cst_4_apply, val_main_v28_apply, val_main_v27_apply, val_main_cst_3_apply,
    val_main_v26_apply, val_main_v25_apply, val_main_v11_apply, e11]
  rw [gates_apply x0 x1 x3 x4 x5 x6 x7 x8 x9 x10 x11 x12 x13 x14 r 2 q (⟨2048 + q.val, by omega⟩ : Fin 4096) (by show 2048 + q.val = 2 * 1024 + q.val; omega) x9 x10 x11 rfl rfl rfl]
  unfold cellH
  simp only [Ideal.ofBits_def, Ideal.ofBits_one_f32]
  rfl

end Cert.ReferenceIdeal.RefValue

end
-- ==== Proof.lean ====
/-
  The LSTM cell: a Pallas kernel against its jnp reference, equal on the extended reals.

  Both programs compute, for every batch row r and hidden column j,
      c'(r,j) = σ(pre_f)·c(r,j) + σ(pre_i)·tanh(pre_c),     h'(r,j) = σ(pre_o)·tanh(c'(r,j)),
  where a gate's pre-activation is  pre_g(r,j) = (Σ_k x(r,k)·W_g(k,j) + Σ_k h(r,k)·U_g(k,j)) + b_g(j)  and σ is the
  logistic function.
  The reference forms x·[W_i|W_f|W_o|W_c] and h·[U_i|U_f|U_o|U_c] as two products with 1024 terms each, adds them and the
  biases, and cuts the result into the four gates; it spells σ(z) as 1/(1 + exp(−z)).
  The kernel works on tiles of 256 rows: it multiplies the tile of [x | h] (2048 columns) by a column band of the weights
  stacked [W ; U] (2048 rows) — one product with 2048 terms —, adds the bias, and applies σ or tanh.
  The two agree because a sum of 2048 terms is the sum of its first 1024 plus the sum of its last 1024 terms — true in
  any commutative monoid, so also where a term is infinite — because a change of float format is the identity on
  extended reals, and because 1/(1 + exp(−z)) is the definition of σ(z) there. No finiteness of the inputs is used.

  The three frames: each kernel program runs tile by tile, every tile reads its inputs and overwrites its own rows of the
  two results, and no host line writes an argument; the reference is a straight line of host operations.
  Nothing was rewritten when the kernel was idealized, so there is nothing to preserve.
-/
import proofs.«179591_j79645873537420_2_alg».proof.Defs
import proofs.«179591_j79645873537420_2_alg».proof.Proof.Gen.Kernel
import proofs.«179591_j79645873537420_2_alg».proof.Proof.Gen.KernelIdeal
import proofs.«179591_j79645873537420_2_alg».proof.Proof.Gen.ReferenceIdeal
import proofs.«179591_j79645873537420_2_alg».proof.Proof.Gen.Pre_finite_inputs
import proofs.«179591_j79645873537420_2_alg».proof.Proof.Gen.ReferenceIdeal.Run
import proofs.«179591_j79645873537420_2_alg».proof.Proof.Gen.ReferenceIdeal.Read
import proofs.«179591_j79645873537420_2_alg».proof.Proof.KernelRun
import proofs.«179591_j79645873537420_2_alg».proof.Proof.KernelIdealRun
import proofs.«179591_j79645873537420_2_alg».proof.Proof.KernelArrays
import proofs.«179591_j79645873537420_2_alg».proof.Proof.RefGates
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program runs to the end and keeps its arguments. -/
theorem frame_kernel : Cert.frame_Kernel := fun m ρ _ => Cert.Kernel.Lstm.frame m ρ

/-- So does its idealization. -/
theorem frame_kernelIdeal : Cert.frame_KernelIdeal := fun m ρ _ => Cert.KernelIdeal.Lstm.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the new hidden state and the new cell state of the arguments. -/
theorem algebraic : Cert.algebraic_KernelIdeal_ReferenceIdeal := by
  intro m ρ m' ρ' _ hagree
  refine ⟨fun c => Cert.KernelIdeal.Lstm.GH m c, fun c => Cert.KernelIdeal.Lstm.GC m c, Cert.KernelIdeal.Lstm.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v36_eq, h0, h1, h2, h3, h4, h5, h6, h7, h8, h9, h10, h11, h12, h13, h14]
    funext i
    obtain ⟨r, q, rfl⟩ : ∃ (r : Fin 8192) (q : Fin 1024), i = ix2 r q := ⟨i 0, i 1, eq_ix2 i⟩
    exact (Cert.ReferenceIdeal.RefValue.hidden_apply _ _ _ _ _ _ _ _ _ _ _ _ _ _ _ r q).trans rfl
  · obtain ⟨h0, h1, h2, h3, h4, h5, h6, h7, h8, h9, h10, h11, h12, h13, h14⟩ := hagree c
    rw [Cert.ReferenceIdeal.Read.val_main_v34_eq, h0, h1, h2, h3, h4, h5, h6, h7, h8, h9, h10, h11, h12, h13, h14]
    funext i
    obtain ⟨r, q, rfl⟩ : ∃ (r : Fin 8192) (q : Fin 1024), i = ix2 r q := ⟨i 0, i 1, eq_ix2 i⟩
    exact (Cert.ReferenceIdeal.RefValue.cell_apply _ _ _ _ _ _ _ _ _ _ _ _ _ _ _ r q).trans rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
